-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v34 : BitVec 1 := Scalar.cmpi .eq arg0 c15_i32
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  natLt_1_32 : 1 < 32
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .i1⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel
  bcast_S_S16777216 : S_.BroadcastsInDim S16777216 (![] : Fin 0 → Fin S16777216.rank)

variable [Facts₀]

class Facts : Prop extends Facts₀ where

variable [Facts]
-- ==== Proof.Pieces.lean ====
import proofs.«111093_j65936337928903_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! # What each case of the body leaves behind

The body has three cases over the sixteen grid points: the first point (the two running sums are reset to zero
before the point's block is added), the middle points (the block is added to what the point before left), and
the last point (the block is added, then both sums are divided by the element count and stored to the outputs).
Each lemma below says which composition of the body's arithmetic a case leaves in a running sum or in an
output: the running sum of squares is `k0_pay7` (block sum of squared errors added to the sum so far), the
running count is `k0_pay8`, the reset values are `k0_pay3` / `k0_pay4`, the final quotients `k0_pay1` / `k0_pay2`. -/

namespace Cert.KernelIdeal.Acc
open Cert.KernelIdeal Cert.KernelIdeal.Gen
variable {F : FTy → Type} [FloatOps F]

theorem hz : (![0, 0] : Fin 2 → Nat) = fun _ => 0 := funext fun a => by fin_cases a <;> rfl

/-- First point, sum of squares: zero, then the block's sum added to it. -/
theorem first_sq (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 : Vec F S8192x128 .f32) :
    sout0_A_0 c i a1 h1 a2 h2 a3 h3 a4 h4 a5 h5 a6 h6 hc0 hc1 x0 x1 = k0_pay7 x0 x1 (k0_pay3 (F := F)) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- First point, count: zero, then the block's count added to it. -/
theorem first_cnt (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 : Vec F S8192x128 .f32) :
    sout0_A_1 c i a1 h1 a2 h2 a3 h3 a4 h4 a5 h5 a6 h6 hc0 hc1 x0 x1 = k0_pay8 x0 x1 (k0_pay4 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- Middle point, sum of squares: the block's sum added to what the point before left. -/
theorem mid_sq (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 : Vec F S8192x128 .f32) (xs0 xs1 : Vec F S1x1 .f32) :
    sout0_B_0 c i a1 h1 a2 h2 a3 h3 a4 h4 a5 h5 a6 h6 hc0 hc1 x0 x1 xs0 xs1 = k0_pay7 x0 x1 xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, View.ld_unit_zero (S := S8192x128) hz,
    View.ld_unit_zero (S := S1x1) hz]

/-- Middle point, count. -/
theorem mid_cnt (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 : Vec F S8192x128 .f32) (xs0 xs1 : Vec F S1x1 .f32) :
    sout0_B_1 c i a1 h1 a2 h2 a3 h3 a4 h4 a5 h5 a6 h6 hc0 hc1 x0 x1 xs0 xs1 = k0_pay8 x0 x1 xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h6.read_unread, View.ld_unit_zero (S := S8192x128) hz,
    View.ld_unit_zero (S := S1x1) hz]

/-- Last point, sum of squares: as at a middle point. -/
theorem last_sq (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S8192x128 .f32) (xs0 xs1 : Vec F S1x1 .f32) :
    sout0_C_0 c i a1 h1 a2 h2 a3 h3 a4 h4 a5 h5 a6 h6 hc0 hc1 x0 x1 xs0 xs1 = k0_pay7 x0 x1 xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, View.ld_unit_zero (S := S8192x128) hz,
    View.ld_unit_zero (S := S1x1) hz]

/-- Last point, count: as at a middle point. -/
theorem last_cnt (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S8192x128 .f32) (xs0 xs1 : Vec F S1x1 .f32) :
    sout0_C_1 c i a1 h1 a2 h2 a3 h3 a4 h4 a5 h5 a6 h6 hc0 hc1 x0 x1 xs0 xs1 = k0_pay8 x0 x1 xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h6.read_unread, View.ld_unit_zero (S := S8192x128) hz,
    View.ld_unit_zero (S := S1x1) hz]

/-- Last point, first output: the completed sum of squares divided by the element count. -/
theorem last_loss (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S8192x128 .f32) (xs0 xs1 : Vec F S1x1 .f32) :
    out0_C_2 c i a1 h1 a2 h2 a3 h3 a4 h4 a5 h5 a6 h6 hc0 hc1 x0 x1 xs0 xs1 = k0_pay1 (k0_pay7 x0 x1 xs0) := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, View.ld_unit_zero (S := S8192x128) hz,
    View.ld_unit_zero (S := S1x1) hz]

/-- Last point, second output: the completed count divided by the element count. -/
theorem last_acc (c : Dev nD) (i : grid0.Coords) (a1 : Memref sig .tc .vmem S8192x128 .f32) (h1 : a1.IsWhole) (a2 : Memref sig .tc .vmem S8192x128 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 : Vec F S8192x128 .f32) (xs0 xs1 : Vec F S1x1 .f32) :
    out0_C_3 c i a1 h1 a2 h2 a3 h3 a4 h4 a5 h5 a6 h6 hc0 hc1 x0 x1 xs0 xs1 = k0_pay2 (k0_pay8 x0 x1 xs1) := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h6.read_unread, View.ld_unit_zero (S := S8192x128) hz,
    View.ld_unit_zero (S := S1x1) hz]

end Cert.KernelIdeal.Acc

end
-- ==== Proof.Spec.lean ====
import Idealize.ShloMosaic.PureOps.Ideal
import Idealize.ShloMosaic.PureOps.Ideal.Laws
import Idealize.ShloMosaic.Lib.ValueIdx

/-! # The two means, as functions of the prediction and label arrays

Over the extended reals both programs compute, from the 2^24 prediction / label pairs,

* the mean squared error `(∑ₖ (pₖ - lₖ)²) / 2^24`, and
* the fraction of pairs whose relative error `(pₖ - lₖ) / lₖ` is at most the threshold (the f32 nearest 0.1),
  `(∑ₖ [ (pₖ - lₖ)/lₖ ≤ thr ]) / 2^24`.

The kernel reaches each sum block by block — sixteen blocks of 8192 rows by 128 lanes of the arrays reshaped to
131072 × 128 — adding each block's sum to a running total; the reference sums the flat arrays at once. Addition of
extended reals is commutative and associative, so the two groupings of one sum agree whatever the inputs
(no finiteness is needed): `sum_flat` below is that regrouping, over the bijection between a flat position and
its (block, row, lane). -/

noncomputable section

namespace Cert.Means

open Idealize.ShloMosaic Idealize.ShloMosaic.ValueIdx

/-- The squared error of one pair. -/
def sqErr (p l : EReal) : EReal := (p - l) * (p - l)

/-- The threshold comparison of one pair, as a bit: is the relative error at most the f32 nearest 0.1? -/
def hitBit (p l : EReal) : BitVec 1 := Ideal.cmp .ole (Ideal.div (p - l) l) (Ideal.ofBits .f32 0x3DCCCCCD#32)

/-- The same as the number 0 or 1. -/
def hit (p l : EReal) : EReal := (((hitBit p l).toNat : ℝ) : EReal)

/-- The flat position of lane `l` of row `r` of block `t`: row `8192 t + r` of the 131072 × 128 reshape. -/
def flat (t : Fin 16) (r : Fin 8192) (l : Fin 128) : Fin 16777216 :=
  ⟨(t.val * 8192 + r.val) * 128 + l.val, by have := t.isLt; have := r.isLt; have := l.isLt; omega⟩

theorem flat_val (t : Fin 16) (r : Fin 8192) (l : Fin 128) : (flat t r l).val = (t.val * 8192 + r.val) * 128 + l.val := rfl

/-- (block, row, lane) ↔ flat position. -/
def flatEquiv : Fin 16 × Fin 8192 × Fin 128 ≃ Fin 16777216 where
  toFun p := flat p.1 p.2.1 p.2.2
  invFun k := (⟨k.val / 1048576, by have := k.isLt; omega⟩, ⟨k.val / 128 % 8192, by omega⟩, ⟨k.val % 128, by omega⟩)
  left_inv p := by
    obtain ⟨t, r, l⟩ := p
    have := t.isLt; have := r.isLt; have := l.isLt
    refine Prod.ext (Fin.ext ?_) (Prod.ext (Fin.ext ?_) (Fin.ext ?_))
    · show ((t.val * 8192 + r.val) * 128 + l.val) / 1048576 = t.val; omega
    · show ((t.val * 8192 + r.val) * 128 + l.val) / 128 % 8192 = r.val; omega
    · show ((t.val * 8192 + r.val) * 128 + l.val) % 128 = l.val; omega
  right_inv k := by
    have := k.isLt
    refine Fin.ext ?_
    show (k.val / 1048576 * 8192 + k.val / 128 % 8192) * 128 + k.val % 128 = k.val
    omega

/-- A sum over the flat positions, regrouped by block, row and lane. -/
theorem sum_flat {M : Type*} [AddCommMonoid M] (f : Fin 16777216 → M) :
    ∑ k, f k = ∑ t : Fin 16, ∑ r : Fin 8192, ∑ l : Fin 128, f (flat t r l) := by
  rw [← Equiv.sum_comp flatEquiv f, Fintype.sum_prod_type]
  refine Finset.sum_congr rfl fun t _ => ?_
  rw [Fintype.sum_prod_type]
  rfl

/-- The total of a per-pair quantity `g` over the flat arrays. -/
def total (g : EReal → EReal → EReal) (p l : (⟨1, ![16777216]⟩ : Shape).Idx → EReal) : EReal :=
  ∑ k : Fin 16777216, g (p (ix1 k)) (l (ix1 k))

/-- The same total, block by block: block `t`'s part is the double sum over its rows and lanes. -/
theorem total_by_blocks (g : EReal → EReal → EReal) (p l : (⟨1, ![16777216]⟩ : Shape).Idx → EReal) :
    total g p l = ∑ t : Fin 16, ∑ r : Fin 8192, ∑ c : Fin 128, g (p (ix1 (flat t r c))) (l (ix1 (flat t r c))) :=
  sum_flat fun k => g (p (ix1 k)) (l (ix1 k))

/-- The mean of a per-pair quantity: its total divided by the element count 2^24 (the f32 word `0x4B800000`). -/
def mean (g : EReal → EReal → EReal) (p l : (⟨1, ![16777216]⟩ : Shape).Idx → EReal) : EReal :=
  Ideal.div (total g p l) (Ideal.ofBits .f32 0x4B800000#32)

end Cert.Means

end
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.Payload.lean ====
import proofs.«111093_j65936337928903_1_alg».proof.Proof.Gen.KernelIdeal.Skeleton
import proofs.«111093_j65936337928903_1_alg».proof.Proof.Spec
import proofs.«111093_j65936337928903_1_alg».proof.Proof.LibIdealBits
import Idealize.ShloMosaic.Lib.Pipeline.Value
import Idealize.ShloMosaic.Lib.ValueIdx
import Idealize.ShloMosaic.PureOps.Ideal.Laws

/-! # The body's arithmetic over the extended reals

Each value the body stores, read at its one index: the running sum of squares after a point is what it was plus
the sum over the point's block of the squared errors; the running count likewise with the 0/1 threshold
indicator; the reset values are zero; the final values are the running totals divided by the element count.
The block sum is a lane reduction over both axes of the block viewed as 1 × 8192 × 128, into one element:
at the exact instance it is the sum over every index of the block. -/

noncomputable section

open Idealize.ShloMosaic Idealize.ShloMosaic.ValueIdx

namespace Cert.KernelIdeal.Arith

open Cert.KernelIdeal Cert.KernelIdeal.Gen Cert.Means Cert.LibIdealBits

/-- A block, cast to 1 × 8192 × 128, summed over its last two axes into a one-element vector, that element
    extracted: the sum of the block over all its indices. -/
theorem block_total (v : FVec Ideal S8192x128 .f32)
    (hc : S8192x128.ShapeCasts S1x8192x128) (hr : S1x8192x128.Reduces [1, 2] S1)
    (hφ : FKind.Formats .f32) (hacc : (0x00000000#32 : BitVec 32) = FKind.add.neutral .f32 hφ)
    (hc' : S1.ShapeCasts S1x1x1) (hp : ∀ a, (![0, 0, 0] : Fin 3 → Nat) a < S1x1x1.size a) :
    extractAt ![0, 0, 0] (shapeCast S1x1x1 (multiReduction .add [1, 2] S1 (shapeCast S1x8192x128 v hc) 0x00000000#32 hr hφ hacc) hc') hp
      = ∑ j : S8192x128.Idx, v j := by
  unfold extractAt
  refine (shapeCast_apply _ hc' _ (ix1 (0 : Fin 1)) ?_).trans ?_
  · rw [Shape.rowMajor_val_one, Shape.rowMajor_val_three]; rfl
  · refine (Ideal.multiReduction_add_total _ _ hr (fun b => by fin_cases b; rfl) hφ hacc _).trans ?_
    unfold shapeCast
    exact Equiv.sum_comp (Shape.reshapeEquiv hc) v

/-- One squared error, as the body computes it (its same-shape casts are the identity). -/
theorem sq_elem (x0 x1 : Vec Ideal S8192x128 .f32) (j : S8192x128.Idx) :
    mulf (k0_pay6 (F := Ideal) x0 x1) (k0_pay6 (F := Ideal) x0 x1) j = sqErr (x0 j) (x1 j) := by
  unfold k0_pay6 k0_pay5
  dsimp only
  rw [shapeCast_self, shapeCast_self, mulf_apply, subf_apply]
  unfold sqErr
  rfl

/-- One threshold indicator, as the body computes it: the comparison bit, widened to 32 bits and converted as a signed
    integer, is the bit as a number. -/
theorem hit_elem (x0 x1 : Vec Ideal S8192x128 .f32) (h : 1 < 32) (j : S8192x128.Idx) :
    (sitofp .f32 (extui 32 (cmpf .ole (divf (k0_pay6 (F := Ideal) x0 x1) (k0_pay5 (F := Ideal) x1))
        (broadcast S8192x128 (Scalar.ofBits (F := Ideal) .f32 0x3DCCCCCD#32))) h) : FVec Ideal S8192x128 .f32) j
      = hit (x0 j) (x1 j) := by
  unfold k0_pay6 k0_pay5
  dsimp only
  rw [shapeCast_self, shapeCast_self, sitofp_apply, extui_apply, cmpf_apply, divf_apply, subf_apply, broadcast_apply,
    scalar_ofBits, sitofp_ideal, Ideal.cmpf_def]
  unfold hit hitBit
  exact bit_signed_eq_unsigned _

/-- The running sum of squares after a point: what it was, plus the block's sum of squared errors. -/
theorem run_sq (x0 x1 : Vec Ideal S8192x128 .f32) (acc : Vec Ideal S1x1 .f32) (y : S1x1.Idx) :
    k0_pay7 (F := Ideal) x0 x1 acc y = acc y + ∑ j : S8192x128.Idx, sqErr (x0 j) (x1 j) := by
  unfold k0_pay7
  dsimp only
  rw [shapeCast_self, addf_apply, broadcast_apply]
  refine congrArg (acc y + ·) ?_
  exact (block_total _ _ _ _ _ _ _).trans (Finset.sum_congr rfl fun j _ => sq_elem x0 x1 j)

/-- The running count after a point: what it was, plus the block's count of pairs within the threshold. -/
theorem run_cnt (x0 x1 : Vec Ideal S8192x128 .f32) (acc : Vec Ideal S1x1 .f32) (y : S1x1.Idx) :
    k0_pay8 (F := Ideal) x0 x1 acc y = acc y + ∑ j : S8192x128.Idx, hit (x0 j) (x1 j) := by
  unfold k0_pay8
  dsimp only
  rw [shapeCast_self, addf_apply, broadcast_apply]
  refine congrArg (acc y + ·) ?_
  exact (block_total _ _ _ _ _ _ _).trans (Finset.sum_congr rfl fun j _ => hit_elem x0 x1 _ j)

/-- The reset values are zero. -/
theorem reset_sq (y : S1x1.Idx) : k0_pay3 (F := Ideal) y = 0 := by
  unfold k0_pay3
  rw [shapeCast_self, broadcast_apply, scalar_ofBits]
  exact Ideal.ofBits_zero_f32

theorem reset_cnt (y : S1x1.Idx) : k0_pay4 (F := Ideal) y = 0 := by
  unfold k0_pay4
  rw [shapeCast_self, broadcast_apply, scalar_ofBits]
  exact Ideal.ofBits_zero_f32

/-- The final values: a running total divided by the element count. -/
theorem final_sq (v : Vec Ideal S1x1 .f32) (y : S1x1.Idx) :
    k0_pay1 (F := Ideal) v y = Ideal.div (v y) (Ideal.ofBits .f32 0x4B800000#32) := by
  unfold k0_pay1
  rw [divf_apply, broadcast_apply, scalar_ofBits]

theorem final_cnt (v : Vec Ideal S1x1 .f32) (y : S1x1.Idx) :
    k0_pay2 (F := Ideal) v y = Ideal.div (v y) (Ideal.ofBits .f32 0x4B800000#32) := by
  unfold k0_pay2
  rw [divf_apply, broadcast_apply, scalar_ofBits]

end Cert.KernelIdeal.Arith

end
-- ==== Proof.Chain.lean ====
import proofs.«111093_j65936337928903_1_alg».proof.Proof.Pieces
import proofs.«111093_j65936337928903_1_alg».proof.Proof.Payload

/-! # The running totals, point by point

After grid point `n` the two carried accumulators hold the sums, over the blocks `0 … n`, of the blocks' sums of
squared errors and of threshold indicators: zero plus block 0's at the first point, the previous total plus the
point's block sum afterwards — an induction over the points. At the last point the two outputs receive these
totals divided by the element count. -/

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.Acc Cert.KernelIdeal.Arith Cert.Means

section Steps

variable {F : FTy → Type} [FloatOps F]
variable (m : (ℓ : Loc nD τ sig) → Buf (Elt F) ℓ)

/-- The first point: both accumulators are reset and receive the point's block. -/
theorem step_first (c : Dev nD) (t : Fin cfg0.N) (h0 : t.val % 16 = 0) (h1 : ¬t.val % 16 = 15) :
    (outsAt0 m c t.val t.isLt).2.2.1 = k0_pay7 (iblk m c 0 t) (iblk m c 1 t) (k0_pay3 (F := F))
    ∧ (outsAt0 m c t.val t.isLt).2.2.2 = k0_pay8 (iblk m c 0 t) (iblk m c 1 t) (k0_pay4 (F := F)) := by
  rw [outsAt0_A m c t h0 h1]
  exact ⟨first_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t), first_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- A middle point: both accumulators receive the point's block on top of what the point before left. -/
theorem step_mid (c : Dev nD) (t : Fin cfg0.N) (h0 : ¬t.val % 16 = 0) (h1 : ¬t.val % 16 = 15) :
    (outsAt0 m c t.val t.isLt).2.2.1 = k0_pay7 (iblk m c 0 t) (iblk m c 1 t) (outsAt0 m c (t.val - 1) (Nat.lt_of_le_of_lt (Nat.sub_le _ _) t.isLt)).2.2.1
    ∧ (outsAt0 m c t.val t.isLt).2.2.2 = k0_pay8 (iblk m c 0 t) (iblk m c 1 t) (outsAt0 m c (t.val - 1) (Nat.lt_of_le_of_lt (Nat.sub_le _ _) t.isLt)).2.2.2 := by
  rw [outsAt0_B m c t h0 h1]
  exact ⟨mid_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    mid_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point: the accumulators as at a middle point, and each output its accumulator's quotient. -/
theorem step_last (c : Dev nD) (t : Fin cfg0.N) (h0 : ¬t.val % 16 = 0) (h1 : t.val % 16 = 15) :
    (outsAt0 m c t.val t.isLt).2.2.1 = k0_pay7 (iblk m c 0 t) (iblk m c 1 t) (outsAt0 m c (t.val - 1) (Nat.lt_of_le_of_lt (Nat.sub_le _ _) t.isLt)).2.2.1
    ∧ (outsAt0 m c t.val t.isLt).2.2.2 = k0_pay8 (iblk m c 0 t) (iblk m c 1 t) (outsAt0 m c (t.val - 1) (Nat.lt_of_le_of_lt (Nat.sub_le _ _) t.isLt)).2.2.2
    ∧ (outsAt0 m c t.val t.isLt).1 = k0_pay1 (k0_pay7 (iblk m c 0 t) (iblk m c 1 t) (outsAt0 m c (t.val - 1) (Nat.lt_of_le_of_lt (Nat.sub_le _ _) t.isLt)).2.2.1)
    ∧ (outsAt0 m c t.val t.isLt).2.1 = k0_pay2 (k0_pay8 (iblk m c 0 t) (iblk m c 1 t) (outsAt0 m c (t.val - 1) (Nat.lt_of_le_of_lt (Nat.sub_le _ _) t.isLt)).2.2.2) := by
  rw [outsAt0_C m c t h0 h1]
  exact ⟨last_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    last_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    last_loss c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    last_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Steps

section Sums

variable (m : (ℓ : Loc nD τ sig) → Buf (Elt Ideal) ℓ)

/-- Block `n`'s sum of a per-pair quantity `g` over the pairs the two input windows hold at point `n`
    (zero past the grid, where it is never used). -/
def blockSum (g : EReal → EReal → EReal) (c : Dev nD) (n : ℕ) : EReal :=
  if h : n < cfg0.N then
    ∑ j : S8192x128.Idx, g ((iblk m c 0 ⟨n, h⟩ : Vec Ideal S8192x128 .f32) j) ((iblk m c 1 ⟨n, h⟩ : Vec Ideal S8192x128 .f32) j)
  else 0

theorem blockSum_of_lt (g : EReal → EReal → EReal) (c : Dev nD) (n : ℕ) (h : n < cfg0.N) :
    blockSum m g c n
      = ∑ j : S8192x128.Idx, g ((iblk m c 0 ⟨n, h⟩ : Vec Ideal S8192x128 .f32) j) ((iblk m c 1 ⟨n, h⟩ : Vec Ideal S8192x128 .f32) j) :=
  dif_pos h

/-- After point `n` the accumulators hold the totals over blocks `0 … n`. -/
theorem totals_after (c : Dev nD) : ∀ (n : ℕ) (h : n < cfg0.N) (y : S1x1.Idx),
    (outsAt0 (F := Ideal) m c n h).2.2.1 y = ∑ s ∈ Finset.range (n + 1), blockSum m sqErr c s
    ∧ (outsAt0 (F := Ideal) m c n h).2.2.2 y = ∑ s ∈ Finset.range (n + 1), blockSum m hit c s
  | 0, h, y => by
    obtain ⟨e1, e2⟩ := step_first m c ⟨0, h⟩ rfl (by show ¬(0 : ℕ) % 16 = 15; decide)
    rw [Finset.sum_range_one, Finset.sum_range_one, blockSum_of_lt m _ c 0 h, blockSum_of_lt m _ c 0 h]
    constructor
    · refine (congrFun e1 y).trans ((run_sq (iblk m c 0 ⟨0, h⟩) (iblk m c 1 ⟨0, h⟩) _ y).trans ?_)
      rw [reset_sq, zero_add]
    · refine (congrFun e2 y).trans ((run_cnt (iblk m c 0 ⟨0, h⟩) (iblk m c 1 ⟨0, h⟩) _ y).trans ?_)
      rw [reset_cnt, zero_add]
  | n + 1, h, y => by
    have hN : cfg0.N = 16 := N_0
    have h0 : ¬(⟨n + 1, h⟩ : Fin cfg0.N).val % 16 = 0 := by dsimp only; omega
    have ih := totals_after c n (Nat.lt_of_succ_lt h) y
    rw [Finset.sum_range_succ, Finset.sum_range_succ _ (n + 1), blockSum_of_lt m _ c (n + 1) h, blockSum_of_lt m _ c (n + 1) h]
    by_cases h1 : (⟨n + 1, h⟩ : Fin cfg0.N).val % 16 = 15
    · obtain ⟨e1, e2, -, -⟩ := step_last m c ⟨n + 1, h⟩ h0 h1
      exact ⟨(congrFun e1 y).trans ((run_sq (iblk m c 0 ⟨n + 1, h⟩) (iblk m c 1 ⟨n + 1, h⟩) _ y).trans (congrArg (· + _) ih.1)),
        (congrFun e2 y).trans ((run_cnt (iblk m c 0 ⟨n + 1, h⟩) (iblk m c 1 ⟨n + 1, h⟩) _ y).trans (congrArg (· + _) ih.2))⟩
    · obtain ⟨e1, e2⟩ := step_mid m c ⟨n + 1, h⟩ h0 h1
      exact ⟨(congrFun e1 y).trans ((run_sq (iblk m c 0 ⟨n + 1, h⟩) (iblk m c 1 ⟨n + 1, h⟩) _ y).trans (congrArg (· + _) ih.1)),
        (congrFun e2 y).trans ((run_cnt (iblk m c 0 ⟨n + 1, h⟩) (iblk m c 1 ⟨n + 1, h⟩) _ y).trans (congrArg (· + _) ih.2))⟩

/-- At the last point each output holds its total, over all the blocks up to that point, divided by the element count. -/
theorem outputs_at_last (c : Dev nD) (t : Fin cfg0.N) (h0 : ¬t.val % 16 = 0) (h1 : t.val % 16 = 15) (y : S1x1.Idx) :
    (outsAt0 (F := Ideal) m c t.val t.isLt).1 y
        = Ideal.div (∑ s ∈ Finset.range (t.val + 1), blockSum m sqErr c s) (Ideal.ofBits .f32 0x4B800000#32)
    ∧ (outsAt0 (F := Ideal) m c t.val t.isLt).2.1 y
        = Ideal.div (∑ s ∈ Finset.range (t.val + 1), blockSum m hit c s) (Ideal.ofBits .f32 0x4B800000#32) := by
  obtain ⟨e1, e2, e3, e4⟩ := step_last m c t h0 h1
  obtain ⟨s1, s2⟩ := totals_after m c t.val t.isLt y
  constructor
  · rw [e3, ← e1, final_sq, s1]
  · rw [e4, ← e2, final_cnt, s2]

end Sums

end Cert.KernelIdeal.Chain

end
-- ==== Proof.Blocks.lean ====
import proofs.«111093_j65936337928903_1_alg».proof.Proof.Gen.KernelIdeal.Frame
import proofs.«111093_j65936337928903_1_alg».proof.Proof.Spec
import Idealize.ShloMosaic.Lib.Pipeline.Value
import Idealize.ShloMosaic.Lib.StableHlo.Run
import Idealize.ShloMosaic.Lib.ValueIdx

/-! # What a grid point reads

The region's two input arrays are the flat argument arrays reshaped to 131072 × 128, and at grid point `t` each
input window holds rows `8192 t … 8192 t + 8191` of its array. So element (row `r`, lane `l`) of the block at
point `t` is the argument's element at flat position `(8192 t + r) · 128 + l`. -/

noncomputable section

open Idealize.ShloMosaic Idealize.ShloMosaic.TcCoe Idealize.SL.Sem Idealize.ShloMosaic.ValueIdx

namespace Cert.KernelIdeal.Blocks

open Cert.KernelIdeal Cert.KernelIdeal.Gen Cert.Means

variable {F : FTy → Type} [FloatOps F]
variable (m : (ℓ : Loc nD τ sig) → Buf (Elt F) ℓ)

/-- The predictions as the region finds them: the flat argument, reshaped. -/
theorem entry_pred (c : Dev nD) : (V m c main_v0 : S131072x128.Idx → F .f32)
    = shapeCast S131072x128 (m ((c : Thread nD τ).loc main_arg0)) shapeCasts_S16777216_S131072x128 := by
  show StableHlo.after hostOps0 (fun b => m (c, b)) (Proc.devRef .tc main_v0) = _
  after_results
  rfl

/-- The labels as the region finds them: the flat argument, reshaped. -/
theorem entry_lab (c : Dev nD) : (V m c main_v1 : S131072x128.Idx → F .f32)
    = shapeCast S131072x128 (m ((c : Thread nD τ).loc main_arg1)) shapeCasts_S16777216_S131072x128 := by
  show StableHlo.after hostOps0 (fun b => m (c, b)) (Proc.devRef .tc main_v1) = _
  after_results
  rfl

/-- The reshape keeps the row-major position: (row `R`, lane `l`) reads flat position `128 R + l`. -/
theorem reshape_at {α : Type} (x : S16777216.Idx → α) (h : S16777216.ShapeCasts S131072x128) (R : Fin 131072) (l : Fin 128)
    (k : Fin 16777216) (hk : k.val = R.val * 128 + l.val) :
    shapeCast S131072x128 x h (ix2 R l) = x (ix1 k) := by
  refine shapeCast_apply x h _ _ ?_
  rw [Shape.rowMajor_val_one, Shape.rowMajor_val_two]
  exact hk

/-- Both input windows step one block of rows per grid point and never move along the lanes. -/
theorem index_facts : ∀ t : Fin cfg0.N, win0_0.index t 0 = t.val ∧ win0_0.index t 1 = 0
    ∧ win0_1.index t 0 = t.val ∧ win0_1.index t 1 = 0 :=
  (by decide +kernel : ∀ t : Fin grid0.N, _)

/-- Element (r, l) of the predictions' block at point `t`. -/
theorem pred_at (c : Dev nD) (t : Fin cfg0.N) (r : Fin 8192) (l : Fin 128) :
    (iblk m c 0 t : Vec F S8192x128 .f32) (ix2 r l)
      = m ((c : Thread nD τ).loc main_arg0) (ix1 (flat (t.cast N_0) r l)) := by
  obtain ⟨h0, h1, -, -⟩ := index_facts t
  have ht : t.val < 16 := lt_of_lt_of_eq t.isLt N_0
  unfold iblk
  rw [View.read_apply]
  show V m c main_v0 _ = _
  rw [entry_pred]
  refine reshape_at _ _ ⟨win0_0.index t 0 * 8192 + 1 * r.val, by rw [h0]; have := r.isLt; omega⟩
    ⟨win0_0.index t 1 * 128 + 1 * l.val, by rw [h1]; have := l.isLt; omega⟩ _ ?_
  show (t.val * 8192 + r.val) * 128 + l.val = (win0_0.index t 0 * 8192 + 1 * r.val) * 128 + (win0_0.index t 1 * 128 + 1 * l.val)
  rw [h0, h1]; omega

/-- Element (r, l) of the labels' block at point `t`. -/
theorem lab_at (c : Dev nD) (t : Fin cfg0.N) (r : Fin 8192) (l : Fin 128) :
    (iblk m c 1 t : Vec F S8192x128 .f32) (ix2 r l)
      = m ((c : Thread nD τ).loc main_arg1) (ix1 (flat (t.cast N_0) r l)) := by
  obtain ⟨-, -, h0, h1⟩ := index_facts t
  have ht : t.val < 16 := lt_of_lt_of_eq t.isLt N_0
  unfold iblk
  rw [View.read_apply]
  show V m c main_v1 _ = _
  rw [entry_lab]
  refine reshape_at _ _ ⟨win0_1.index t 0 * 8192 + 1 * r.val, by rw [h0]; have := r.isLt; omega⟩
    ⟨win0_1.index t 1 * 128 + 1 * l.val, by rw [h1]; have := l.isLt; omega⟩ _ ?_
  show (t.val * 8192 + r.val) * 128 + l.val = (win0_1.index t 0 * 8192 + 1 * r.val) * 128 + (win0_1.index t 1 * 128 + 1 * l.val)
  rw [h0, h1]; omega

end Cert.KernelIdeal.Blocks

end
-- ==== Proof.Result.lean ====
import proofs.«111093_j65936337928903_1_alg».proof.Proof.Chain
import proofs.«111093_j65936337928903_1_alg».proof.Proof.Blocks
import Idealize.ShloMosaic.Lib.Pipeline.Value
import Idealize.ShloMosaic.Lib.StableHlo.Run
import Idealize.ShloMosaic.Lib.Tactic

/-! # The kernel's two results

Each of the region's two 1 × 1 result arrays is written back once, after the last grid point, with what that
point stored: the completed total divided by the element count. The lines after the region reshape each
1 × 1 array to a scalar. So each scalar result is the mean of its per-pair quantity over all 2^24 pairs of the
argument arrays: the sixteen block sums regroup into the one sum over the flat arrays. -/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Chain Cert.KernelIdeal.Blocks Cert.Means

section Arrays

variable {F : FTy → Type} [FloatOps F]
variable (m : (ℓ : Loc nD τ sig) → Buf (Elt F) ℓ) (ρ : Dev nD → PrngReg)

/-- A 1 × 1 array has one index. -/
instance oneIndex : Subsingleton S1x1.Idx :=
  ⟨fun a b => funext fun d => Fin.ext (by
    match d with
    | ⟨0, hd⟩ => have ha : (a ⟨0, hd⟩).val < 1 := (a ⟨0, hd⟩).isLt; have hb : (b ⟨0, hd⟩).val < 1 := (b ⟨0, hd⟩).isLt; omega
    | ⟨1, hd⟩ => have ha : (a ⟨1, hd⟩).val < 1 := (a ⟨1, hd⟩).isLt; have hb : (b ⟨1, hd⟩).val < 1 := (b ⟨1, hd⟩).isLt; omega)⟩

/-- What the last point leaves in the first output's buffer, as contents of the first result array. -/
def lossArr (c : Dev nD) : Buf (Elt F) ((c : Thread nD τ).loc main_v2_0) := (outsAt0 m c t0_15.val t0_15.isLt).1

/-- What the last point leaves in the second output's buffer, as contents of the second result array. -/
def accArr (c : Dev nD) : Buf (Elt F) ((c : Thread nD τ).loc main_v2_1) := (outsAt0 m c t0_15.val t0_15.isLt).2.1

/-- The one write-back of the first output, after the last point, writes that. -/
theorem flushed_loss (c : Dev nD) (t : Fin cfg0.N) (hf : (cfg0.win 2).flush t = true) :
    (dats m 0 c).flushed 2 t = ((cfg0.win 2).blk t).view.read (Elt F) (lossArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  funext y
  rw [View.read_apply]
  show (outsAt0 m c t0_15.val t0_15.isLt).1 _ = (outsAt0 m c t0_15.val t0_15.isLt).1 _
  exact congrArg _ (@Subsingleton.elim S1x1.Idx oneIndex _ _)

/-- That write-back's block is the whole 1 × 1 array: its one index is covered. -/
theorem cover_loss (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t0_15, (flush0_2 t0_15).mpr rfl, ?_⟩
  show i ∈ ((View.whole main_v2_0).slice (win0_2.rect t0_15)).set
  rw [View.set_slice_whole, Rect.mem_set_unit]
  have key : ∀ a : Fin 2, win0_2.index t0_15 a * win0_2.size a = 0 ∧ win0_2.xsize (grid0.coords t0_15) a = 1 := by
    decide +kernel
  have small : ∀ a : Fin 2, (i a).val < 1 := fun a => by fin_cases a <;> exact (i _).isLt
  intro a
  obtain ⟨e0, e1⟩ := key a
  have := small a
  rw [e0, e1]; omega

/-- So the first result array ends holding what the last point left. -/
theorem final_loss (c : Dev nD) : (dats m 0 c).arrAt 2 cfg0.N = lossArr m c :=
  (dats m 0 c).arrAt_eq_of_cover 2 (lossArr m c) (flushed_loss m c) (cover_loss c)

/-- After the region, the first scalar result is the reshape of the first result array. -/
theorem tail_loss (c : Dev nD) :
    Pipeline.afterTail₀ cfgs (dats m) 0 (V0 m) [hostOps1] c main_v3 = shapeCast S_ (lossArr m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2_0)
      = lossArr m c := (Pipeline.withArrays_arr spec0 launch0.win.arr_inj c _ _ 2).trans (final_loss m c)
  rw [e]
  rfl

/-- The one write-back of the second output, after the last point, writes that. -/
theorem flushed_acc (c : Dev nD) (t : Fin cfg0.N) (hf : (cfg0.win 3).flush t = true) :
    (dats m 0 c).flushed 3 t = ((cfg0.win 3).blk t).view.read (Elt F) (accArr m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  funext y
  rw [View.read_apply]
  show (outsAt0 m c t0_15.val t0_15.isLt).2.1 _ = (outsAt0 m c t0_15.val t0_15.isLt).2.1 _
  exact congrArg _ (@Subsingleton.elim S1x1.Idx oneIndex _ _)

/-- That write-back's block is the whole 1 × 1 array: its one index is covered. -/
theorem cover_acc (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨t0_15, (flush0_3 t0_15).mpr rfl, ?_⟩
  show i ∈ ((View.whole main_v2_1).slice (win0_3.rect t0_15)).set
  rw [View.set_slice_whole, Rect.mem_set_unit]
  have key : ∀ a : Fin 2, win0_3.index t0_15 a * win0_3.size a = 0 ∧ win0_3.xsize (grid0.coords t0_15) a = 1 := by
    decide +kernel
  have small : ∀ a : Fin 2, (i a).val < 1 := fun a => by fin_cases a <;> exact (i _).isLt
  intro a
  obtain ⟨e0, e1⟩ := key a
  have := small a
  rw [e0, e1]; omega

/-- So the second result array ends holding what the last point left. -/
theorem final_acc (c : Dev nD) : (dats m 0 c).arrAt 3 cfg0.N = accArr m c :=
  (dats m 0 c).arrAt_eq_of_cover 3 (accArr m c) (flushed_acc m c) (cover_acc c)

/-- After the region, the second scalar result is the reshape of the second result array. -/
theorem tail_acc (c : Dev nD) :
    Pipeline.afterTail₀ cfgs (dats m) 0 (V0 m) [hostOps1] c main_v4 = shapeCast S_ (accArr m c) shapeCasts_S1x1_S_ := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2_1)
      = accArr m c := (Pipeline.withArrays_arr spec0 launch0.win.arr_inj c _ _ 3).trans (final_acc m c)
  rw [e]
  rfl

end Arrays

section Values

variable (m : (ℓ : Loc nD τ sig) → Buf (Elt Ideal) ℓ) (ρ : Dev nD → PrngReg)

/-- The sixteen block sums of a per-pair quantity are its one total over the flat argument arrays: block `t`'s
    pairs are the arguments' at the flat positions of its rows and lanes. -/
theorem blocks_total (g : EReal → EReal → EReal) (c : Dev nD) :
    ∑ s ∈ Finset.range 16, blockSum m g c s = total g (m ((c : Thread nD τ).loc main_arg0)) (m ((c : Thread nD τ).loc main_arg1)) := by
  rw [total_by_blocks, Finset.sum_range]
  refine Finset.sum_congr rfl fun t _ => ?_
  have ht : t.val < cfg0.N := lt_of_lt_of_eq t.isLt N_0.symm
  rw [blockSum_of_lt m g c t.val ht, sum_idx2]
  refine Finset.sum_congr rfl fun r _ => Finset.sum_congr rfl fun l _ => ?_
  rw [pred_at, lab_at]
  rfl

/-- The first result array's one element: the mean squared error. -/
theorem lossArr_value (c : Dev nD) (y : S1x1.Idx) : lossArr m c y = mean sqErr (m ((c : Thread nD τ).loc main_arg0)) (m ((c : Thread nD τ).loc main_arg1)) := by
  have h := (outputs_at_last m c t0_15 (by decide) (by decide) y).1
  unfold lossArr mean
  rw [← blocks_total]
  exact h

/-- The second result array's one element: the fraction of pairs within the threshold. -/
theorem accArr_value (c : Dev nD) (y : S1x1.Idx) : accArr m c y = mean hit (m ((c : Thread nD τ).loc main_arg0)) (m ((c : Thread nD τ).loc main_arg1)) := by
  have h := (outputs_at_last m c t0_15 (by decide) (by decide) y).2
  unfold accArr mean
  rw [← blocks_total]
  exact h

/-- The first scalar result. -/
theorem result_loss (c : Dev nD) :
    Pipeline.afterTail₀ cfgs (dats m) 0 (V0 m) [hostOps1] c main_v3 = fun _ => mean sqErr (m ((c : Thread nD τ).loc main_arg0)) (m ((c : Thread nD τ).loc main_arg1)) := by
  rw [tail_loss]
  funext i
  refine (shapeCast_apply _ _ _ (ix2 (0 : Fin 1) (0 : Fin 1)) ?_).trans (lossArr_value m c _)
  have h1 : (S_.rowMajor i).val < 1 := (S_.rowMajor i).isLt
  rw [Shape.rowMajor_val_two]
  show (0 : ℕ) = (S_.rowMajor i).val
  omega

/-- The second scalar result. -/
theorem result_acc (c : Dev nD) :
    Pipeline.afterTail₀ cfgs (dats m) 0 (V0 m) [hostOps1] c main_v4 = fun _ => mean hit (m ((c : Thread nD τ).loc main_arg0)) (m ((c : Thread nD τ).loc main_arg1)) := by
  rw [tail_acc]
  funext i
  refine (shapeCast_apply _ _ _ (ix2 (0 : Fin 1) (0 : Fin 1)) ?_).trans (accArr_value m c _)
  have h1 : (S_.rowMajor i).val < 1 := (S_.rowMajor i).isLt
  rw [Shape.rowMajor_val_two]
  show (0 : ℕ) = (S_.rowMajor i).val
  omega

/-- The kernel's run at the exact instance: every weakly fair execution terminates with the two scalar results at the
    two means of the argument arrays, and the arguments unchanged. -/
theorem run : θ_run defs (onTc (τ := τ) (main (F := Ideal))) ⟨m, fun _ => 0, ρ⟩ fun r => ∀ c : Dev nD,
      r.2.mem ((c.tc : Thread nD τ).loc main_v3) = (fun _ => mean sqErr (m ((c.tc : Thread nD τ).loc main_arg0)) (m ((c.tc : Thread nD τ).loc main_arg1)))
      ∧ r.2.mem ((c.tc : Thread nD τ).loc main_v4) = (fun _ => mean hit (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_loss m c),
      ((h c).2 main_v4 (Pipeline.mem_restRefs_of main_v4 (by decide) (by decide))).trans (result_acc m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Values

end Cert.KernelIdeal.Result

end
-- ==== Proof.RefValue.lean ====
import proofs.«111093_j65936337928903_1_alg».proof.Proof.Gen.ReferenceIdeal.Read
import proofs.«111093_j65936337928903_1_alg».proof.Proof.Spec
import proofs.«111093_j65936337928903_1_alg».proof.Proof.LibIdealBits

/-! # The reference's two results are the two means

The reference subtracts, squares, sums the flat array from zero and divides by the element count; and it divides the
error by the label, compares with the threshold, converts the bit to a number, sums from zero and divides by the
element count. Read one operation at a time at the exact instance, its first result is the mean of the squared
errors and its second the mean of the threshold indicators, over the flat arrays. -/

noncomputable section

open Idealize.ShloMosaic Idealize.ShloMosaic.ValueIdx

namespace Cert.ReferenceIdeal.RefValue

open Cert.ReferenceIdeal Cert.ReferenceIdeal.Read Cert.Means Cert.LibIdealBits

/-- The first result: the mean squared error. -/
theorem loss_eq (x0 x1 : (⟨S16777216, .f32⟩ : BufTy).Contents (Elt Ideal)) :
    val_main_v3 (F := Ideal) x0 x1 = fun _ => mean sqErr x0 x1 := by
  funext i
  rw [val_main_v3_apply, val_main_v2_apply, val_main_cst_apply, val_main_cst_0_apply, Ideal.hostDivf_def,
    Ideal.ofBits_def, Ideal.ofBits_def, Ideal.ofBits_zero_f32, zero_add, sum_idx1]
  have e : ∀ k : Fin 16777216, val_main_v1 (F := Ideal) x0 x1 (ix1 k) = sqErr (x0 (ix1 k)) (x1 (ix1 k)) := fun k => by
    rw [val_main_v1_apply, val_main_v0_apply, Ideal.mulf_def, Ideal.subf_def]
    rfl
  simp only [e]
  rfl

/-- The second result: the fraction of pairs within the threshold. -/
theorem acc_eq (x0 x1 : (⟨S16777216, .f32⟩ : BufTy).Contents (Elt Ideal)) :
    val_main_v9 (F := Ideal) x0 x1 = fun _ => mean hit x0 x1 := by
  funext i
  rw [val_main_v9_apply, val_main_v8_apply, val_main_cst_2_apply, val_main_cst_3_apply, Ideal.hostDivf_def,
    Ideal.ofBits_def, Ideal.ofBits_def, Ideal.ofBits_zero_f32, zero_add, sum_idx1]
  have e : ∀ k : Fin 16777216, val_main_v7 (F := Ideal) x0 x1 (ix1 k) = hit (x0 (ix1 k)) (x1 (ix1 k)) := fun k => by
    rw [val_main_v7_apply, val_main_v6_apply, val_main_v4_apply, val_main_v0_apply, val_main_v5_apply,
      val_main_cst_1_apply, uitofp_ideal, Ideal.cmpf_def, Ideal.hostDivf_def, Ideal.subf_def, Ideal.ofBits_def]
    rfl
  simp only [e]
  rfl

end Cert.ReferenceIdeal.RefValue

end
-- ==== Proof.lean ====
/- The proof of `Cert.Claim`: the streaming kernel that accumulates, block by block over sixteen grid points, the sum
   of squared errors and the count of pairs whose relative error is within the threshold, and divides both by the
   element count at the last point, computes over the extended reals the same two numbers as the reference's two
   `mean`s over the flat arrays.

   The mathematics, module by module:
   * Proof/Spec.lean — the two per-pair quantities, the bijection between a flat position and its (block, row, lane),
     and the regrouping of a sum over the flat positions into sums over blocks, rows and lanes (addition of extended
     reals is commutative and associative, so this needs no finiteness of the inputs).
   * Proof/Pieces.lean — what each of the body's three cases (first, middle, last point) leaves in the two carried
     accumulators and in the two outputs, as compositions of the body's arithmetic.
   * Proof/Payload.lean — that arithmetic over the extended reals: an accumulator after a point is what it was plus
     the block's sum; the lane reduction over both axes of a block is the sum over the block's indices.
   * Proof/Chain.lean — by induction over the grid points, the accumulators after point `n` hold the totals over
     blocks `0 … n`; at the last point the outputs hold the totals divided by the element count.
   * Proof/Blocks.lean — element (r, l) of the block at point `t` is the argument's element at flat position
     `(8192 t + r) · 128 + l` (the arrays enter the region reshaped to 131072 × 128).
   * Proof/Result.lean — the one write-back of each 1 × 1 output covers its array, the lines after the region
     reshape it to a scalar, and the sixteen block sums are the one total: the kernel's run ends with the two means.
   * Proof/RefValue.lean — the reference's two results, read one operation at a time, are the same two means.
   The three frames are the generated ones (the reference's is its run with the results dropped); the idealization
   rewrote nothing, so `preserves` is trivial. -/
import proofs.«111093_j65936337928903_1_alg».proof.Defs
import proofs.«111093_j65936337928903_1_alg».proof.Proof.Gen.Kernel
import proofs.«111093_j65936337928903_1_alg».proof.Proof.Gen.Kernel.Frame
import proofs.«111093_j65936337928903_1_alg».proof.Proof.Gen.KernelIdeal
import proofs.«111093_j65936337928903_1_alg».proof.Proof.Gen.KernelIdeal.Frame
import proofs.«111093_j65936337928903_1_alg».proof.Proof.Gen.ReferenceIdeal
import proofs.«111093_j65936337928903_1_alg».proof.Proof.Gen.ReferenceIdeal.Run
import proofs.«111093_j65936337928903_1_alg».proof.Proof.Gen.Pre_finite_inputs
import proofs.«111093_j65936337928903_1_alg».proof.Proof.Result
import proofs.«111093_j65936337928903_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the mean squared error and the fraction of pairs within the threshold, of arguments that
    agree: the kernel by its run (Proof/Result.lean), the reference by its run read one operation at a time
    (Proof/RefValue.lean). -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v3_eq, Cert.ReferenceIdeal.RefValue.loss_eq, (hagree c).1, (hagree c).2]
    rfl
  · rw [(h c).2.1, Cert.ReferenceIdeal.Read.val_main_v9_eq, Cert.ReferenceIdeal.RefValue.acc_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
